-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000x1, .f32⟩
  | .hbm, ⟨14, _⟩ => ⟨S_, .f32⟩
  | .hbm, ⟨15, _⟩ => ⟨S100000x1, .f32⟩
  | .hbm, ⟨16, _⟩ => ⟨S1600000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with every buffer NAMED at the end.

  The program is four stretches in order: host operations, the first layer's dense kernel over 20 row blocks, host
  operations, the second layer's dense kernel over 20 row blocks. Its buffer contents at the four boundaries are a fold
  from the launch memory: a host stretch applies its operations, a kernel leaves each of its arrays at what its
  write-backs leave there and every other buffer alone. Every weakly fair execution terminates without a fault, and at
  the end every unscoped buffer of the TensorCore holds the fold's last value (`run_all`). Two consequences are
  used: the result buffer holds what the second kernel's twenty write-backs leave in its output array, and each argument
  holds what it was launched with, no stretch writing an argument (`run_named`).
-/
import proofs.«174435_j3882650436636_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost state every pipeline's cells and launch tokens start from. -/
abbrev launchGhost : UR sig nD τ := initOf (Pipeline.cells cfgs cellOf_inj) (Pipeline.launchToks cfgs cellOf_inj)

/-- What a core holds when the first stretch starts: every unscoped buffer at its launch contents, its generator
    register, and nothing owed. -/
abbrev atLaunch (c : Dev nD) : sProp 𝕄 :=
  iprop(StableHlo.held (c : Thread nD τ) (Pipeline.ucRefs τ sig) (W0 m ρ c) ∗ R c)

/-- "Every unscoped buffer of core `c` holds the fold's last value." -/
abbrev AllAtEnd (c : Dev nD) (s : MemSt nD τ sig (Elt F)) : Prop :=
  ∀ b ∈ Pipeline.ucRefs τ sig, s.mem (((c : Thread nD τ)).1, b) = W4 m ρ c b

set_option backward.isDefEq.respectTransparency.types false in
/-- THE RUN: from any memory with zero counters every weakly fair execution of the program on the TensorCores
    terminates, nothing faulting, and every final state has every unscoped buffer at the last boundary's contents.
    The launch deals the pipelines' ghost state and hands each core its buffers at the launch contents; the four
    segments chain boundary to boundary; the last thread state is read back against the final memory. -/
theorem run_all : θ_run defs (onTc (τ := τ) (main (F := F))) ⟨m, fun _ => 0, ρ⟩
    (fun r => ∀ c : Dev nD, AllAtEnd m ρ c r.2) :=
  Pipeline.θ_run_regions_kit (pcfgs (F := F)) adm (pdats m ρ) () cellOf_inj emb₁ defs₀ 𝒱₀ L lv m ρ main (segs m ρ)
    -- @main is the run of its four segments
    (fun c Q => by rw [main_run m ρ c])
    -- the two kernels are different pipelines
    (by simp only [segs, Pipeline.Seg.pipes_host, Pipeline.Seg.pipes_region, Pipeline.Seg.pipes_nil]; decide)
    (O₀ := 0) (hL := fun _ _ => rfl) (G := fun _ => iprop(emp))
    (u₀ := launchGhost)
    (hu₀ := by
      -- the launch ghost state is owned as given; no core is handed anything extra
      iintro Hghost
      imodintro
      isplitl [Hghost]
      · iapply (show (ownU launchGhost : sProp 𝕄) ⊢ BI.own (emb₁ launchGhost) from .rfl)
        iexact Hghost
      · iapply (show (BI.emp : sProp 𝕄) ⊢ bigSep Finset.univ (fun _ : Dev nD => (BI.emp : sProp 𝕄))
          from by rw [BI.bigSep_emp_const])
        iempintro)
    (T₀ := atLaunch m ρ) (Tₙ := Tₙ m ρ)
    -- each segment starts from the contents the one before it ends at
    (hch := ⟨fun _ => .rfl, fun _ => .rfl, fun _ => .rfl, fun _ => .rfl, fun _ => .rfl⟩)
    (hinit := by
      -- core by core: the unscoped buffers at the launch memory are the buffers held at `W0`; the generator
      -- register is at some state; nothing is owed
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      · iexists ∅
        iexact Howes)
    (QY := AllAtEnd m ρ)
    (hfin := fun c s' => by
      -- the held buffers agree with the final memory
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-- The result buffer is the second kernel's output array. -/
theorem result_is_window : Pipeline.arrRef spec1 5 = main_v37 := rfl

/-- What the fold leaves in the result buffer: the second kernel's output array after its last grid point. -/
theorem result_eq (c : Dev nD) :
    W4 m ρ c (Proc.devRef .tc main_v37) = (dat1 (V3 m ρ) c).arrAt 5 cfg1.N :=
  W4_arr m ρ c 5

/-- The run with the result named and the arguments as launched. -/
theorem run_named : θ_run defs (onTc (τ := τ) (main (F := F))) ⟨m, fun _ => 0, ρ⟩ (fun r => ∀ c : Dev nD,
      r.2.mem ((c.tc : Thread nD τ).loc main_v37) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v37 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all m ρ)

end Cert.Sage.KernelRun

end
-- ==== Proof.Laws.lean ====
/-
  The extended-real laws that join the two programs of a mean-aggregation graph layer.

  The kernel forms a neighbourhood mean as  agg · (1 / max(cnt, 1)) , the reference as  agg / max(cnt, 1) .
  On the extended reals the quotient  x / y  is  x · y⁻¹  for every  y ≠ 0  (infinite  y  included), and
  max(cnt, 1) ≥ 1 > 0  whatever  cnt  is, so the two agree at every  agg  and every  cnt : nothing about the
  aggregate or the count being finite is used. The two float words the programs spell, 0.0 and 1.0, denote the
  reals 0 and 1.
-/
import Idealize.ShloMosaic.PureOps.Ideal
import Idealize.ShloMosaic.PureOps.Ideal.Laws

noncomputable section

namespace Cert.Sage.Laws

open Idealize.ShloMosaic

/-- The float word of `1.0` denotes the real `1`. -/
theorem ofBits_one : Ideal.ofBits .f32 0x3F800000#32 = 1 := by
  simp [Ideal.ofBits, Ideal.ieee, -EReal.coe_mul]; norm_num

/-- The float word of `+0.0` denotes `0`. -/
theorem ofBits_zero : Ideal.ofBits .f32 0x00000000#32 = 0 := Ideal.ofBits_zero_f32

/-- Multiplying by the reciprocal of a nonzero extended real is dividing by it: both are `x · y⁻¹`. -/
theorem mul_one_div (x y : EReal) (hy : y ≠ 0) : x * Ideal.div 1 y = Ideal.div x y := by
  unfold Ideal.div
  rw [if_neg hy, if_neg hy, one_mul]

/-- A count clamped below by one is never zero. -/
theorem max_one_ne_zero (c : EReal) : max c 1 ≠ 0 :=
  (lt_of_lt_of_le zero_lt_one (le_max_right c 1)).ne'

/-- THE MEAN LAW: the aggregate times the reciprocal of the clamped count is the aggregate divided by the clamped
    count, for every aggregate and every count on the extended reals. -/
theorem mean_law (agg cnt : EReal) : agg * Ideal.div 1 (max cnt 1) = Ideal.div agg (max cnt 1) :=
  mul_one_div agg (max cnt 1) (max_one_ne_zero cnt)

/-- The bias may be added before or after the second product: addition on the extended reals is commutative and
    associative, at the infinities too. -/
theorem add_bias_comm (a b c : EReal) : a + c + b = a + b + c := add_right_comm a c b

end Cert.Sage.Laws

end
-- ==== Proof.Payload.lean ====
/-
  The dense half of a graph layer, as the kernel's body computes it on one block of 5000 rows, read at an entry.

  The body loads a block of neighbourhood means `x0`, the same rows of the node features `x1`, the two 128×128
  weight matrices `x2`, `x3` and the bias `x4`; it forms the two products on the matrix unit into a zero accumulator,
  adds them, adds the bias to every row, and (first layer only) clamps below at zero. A change of float format is the
  identity on the extended reals, a product into a zero accumulator is the plain sum of products over the contracted
  axis, so entry (p, q) of what the body stores is
      ∑ₖ x0[p,k]·x2[k,q]  +  ∑ₖ x1[p,k]·x3[k,q]  +  x4[q]            (second layer)
      max ( the same , 0 )                                            (first layer).
-/
import proofs.«174435_j3882650436636_1_alg».proof.Proof.Gen.KernelIdeal.Skeleton
import proofs.«174435_j3882650436636_1_alg».proof.Proof.Laws
import Idealize.ShloMosaic.Lib.ValueIdx
import Idealize.ShloMosaic.Lib.ValueLayout
import Idealize.ShloMosaic.PureOps.Ideal.Laws

noncomputable section

namespace Cert.Sage.Payload

open Idealize.ShloMosaic Idealize.ShloMosaic.ValueIdx Cert.KernelIdeal Cert.KernelIdeal.Gen

/-- On the left operand of the block product the row coordinate is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the right operand the column coordinate is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block product into a zero accumulator, at entry (p, q): the sum over the 128 contracted positions of the
    left operand's row p times the right operand's column q. -/
theorem matmul_block (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The bias, laid as one row and repeated over the block's rows, at entry (p, q) is the bias at q. -/
theorem bias_block (b : Vec Ideal S128 .f32) (h : S128.ShapeCasts S1x128) (h' : S1x128.Broadcasts S5000x128)
    (p : Fin 5000) (q : Fin 128) :
    broadcastTo S5000x128 (shapeCast S1x128 b h) h' (ix2 p q) = b (ix1 q) := by
  rw [broadcastTo_1b_ab_apply, shapeCast_a_1a_apply]

/-- SECOND LAYER's body at entry (p, q). -/
theorem dense_apply (x0 x1 : Vec Ideal S5000x128 .f32) (x2 x3 : Vec Ideal S128x128 .f32) (x4 : Vec Ideal S128 .f32)
    (p : Fin 5000) (q : Fin 128) :
    k1_pay1 x0 x1 x2 x3 x4 (ix2 p q)
      = (∑ k : Fin 128, x0 (ix2 p k) * x2 (ix2 k q)) + (∑ k : Fin 128, x1 (ix2 p k) * x3 (ix2 k q)) + x4 (ix1 q) := by
  unfold k1_pay1
  rw [addf_apply, addf_apply, matmul_block, matmul_block, bias_block]
  simp only [truncf_apply, shapeCast_self]

/-- FIRST LAYER's body at entry (p, q): the same, clamped below at zero. -/
theorem dense_relu_apply (x0 x1 : Vec Ideal S5000x128 .f32) (x2 x3 : Vec Ideal S128x128 .f32) (x4 : Vec Ideal S128 .f32)
    (p : Fin 5000) (q : Fin 128) :
    k0_pay1 x0 x1 x2 x3 x4 (ix2 p q)
      = max ((∑ k : Fin 128, x0 (ix2 p k) * x2 (ix2 k q)) + (∑ k : Fin 128, x1 (ix2 p k) * x3 (ix2 k q)) + x4 (ix1 q)) 0 := by
  unfold k0_pay1
  rw [maximumf_apply, addf_apply, addf_apply, matmul_block, matmul_block, bias_block, broadcast_apply]
  simp only [truncf_apply, shapeCast_self]
  show max _ (Ideal.ofBits .f32 0x00000000#32) = _
  rw [Cert.Sage.Laws.ofBits_zero]

end Cert.Sage.Payload

end
-- ==== Proof.Spec.lean ====
/-
  A two-layer graph network with mean aggregation, as ONE function of its arguments over the extended reals.

  For node features `h` (100000 × 128) and an edge list `e` (2 × 1600000: a source row and a destination row),
      agg e h    sums, onto each destination node, the feature rows of the sources of its incoming edges;
      mean e h   divides that sum by the node's in-degree clamped below at one;
      layer …    is   mean·W_l + b + h·W_r   (two 128-term sums of products per entry, and the bias of the column);
      hidden …   is the first layer clamped below at zero;
      out …      is the second layer, applied to `hidden` and to the mean of `hidden` over the same edges.
  Which rows an edge names is decided by the integer edge list alone; the gather and the scatter-add are carried as
  one opaque function `agg` of the features, the same on both sides of the claim, and never opened.

  The reference program's run ends at exactly this function (`reference_eq`). Read at entry (r, q) a layer is
      ∑ₖ mean[r,k]·W_l[k,q]  +  b[q]  +  ∑ₖ h[r,k]·W_r[k,q]                       (`layer_apply`),
  and a mean formed as  agg · (1 / max(cnt,1))  is the mean formed as  agg / max(cnt,1)  (`mean_by_reciprocal`).
-/
import proofs.«174435_j3882650436636_1_alg».proof.Proof.Gen.ReferenceIdeal.Read
import proofs.«174435_j3882650436636_1_alg».proof.Proof.Laws
import Idealize.ShloMosaic.Lib.ValueIdx

set_option maxRecDepth 16384

noncomputable section

namespace Cert.Sage.Spec

open Idealize.ShloMosaic Idealize.ShloMosaic.ValueIdx
open Cert.ReferenceIdeal Cert.ReferenceIdeal.Gen Cert.ReferenceIdeal.Read

/-- Node features: 100000 rows of 128 extended reals. -/
abbrev Nodes := FVec Ideal S100000x128 .f32
/-- The edge list: a row of source nodes and a row of destination nodes. -/
abbrev Edges := (⟨S2x1600000, .i32⟩ : BufTy).Contents (Elt Ideal)
/-- A 128 × 128 weight matrix. -/
abbrev Weight := FVec Ideal S128x128 .f32
/-- A bias: one extended real per output column. -/
abbrev Bias := FVec Ideal S128 .f32
/-- One extended real per node (a count, a reciprocal). -/
abbrev PerNode := FVec Ideal S100000x1 .f32

/-- The sum, onto each destination node, of the feature rows of its incoming edges' sources: a gather of the source
    rows followed by a scatter-add onto zeros by destination. Opaque here: both programs apply it unchanged. -/
def agg (e : Edges) (h : Nodes) : Nodes :=
  Host.scatterAdd (F := Ideal) scatter_S100000x128_S1600000x1_S1600000x128_1_0_0_1 (val_main_v11 (F := Ideal)) (val_main_v12 (F := Ideal) e)
    (Host.gather gather_S100000x128_S1600000x1_S1600000x128_1_0_n_n_0_1_1128 h (val_main_v9 (F := Ideal) e))

/-- Each node's in-degree clamped below at one, repeated along the node's row. -/
def degree (e : Edges) : Nodes := val_main_v20 (F := Ideal) e

/-- The mean of the incoming sources' rows: the aggregate divided by the clamped in-degree. -/
def mean (e : Edges) (h : Nodes) : Nodes := Host.divf (F := Ideal) (agg e h) (degree e)

/-- One layer:  mean·W_l + b + h·W_r . -/
def layer (mn h : Nodes) (Wl Wr : Weight) (b : Bias) : Nodes :=
  addf (F := Ideal) (addf (F := Ideal) (val_main_v26 (F := Ideal) mn Wl) (val_main_v24 (F := Ideal) b)) (val_main_v26 (F := Ideal) h Wr)

/-- Clamping below at zero, entry by entry. -/
def relu (a : Nodes) : Nodes := maximumf (F := Ideal) a (val_main_call0_v0 (F := Ideal))

/-- The first layer, clamped below at zero. -/
def hidden (x : Nodes) (e : Edges) (Wl Wr : Weight) (b : Bias) : Nodes :=
  relu (layer (mean e x) x Wl Wr b)

/-- The network: the second layer on the hidden features and on their mean over the same edges. -/
def out (x : Nodes) (e : Edges) (Wl1 Wr1 : Weight) (b1 : Bias) (Wl2 Wr2 : Weight) (b2 : Bias) : Nodes :=
  layer (mean e (hidden x e Wl1 Wr1 b1)) (hidden x e Wl1 Wr1 b1) Wl2 Wr2 b2

/-! ## The reference program, stage by stage

The reference spells the edge-derived arrays twice, once per layer: the source rows to gather, the destination rows to
scatter onto, the zero array scattered onto, the clamped in-degree, the bias laid over the rows. Each second spelling
is the first (the same operations of the same edge list), so the second layer's stages are the first layer's functions
applied to the hidden features. -/

theorem second_sources_eq (e : Edges) : val_main_v34 (F := Ideal) e = val_main_v9 (F := Ideal) e := rfl
theorem second_destinations_eq (e : Edges) : val_main_v37 (F := Ideal) e = val_main_v12 (F := Ideal) e := rfl
theorem second_zeros_eq : val_main_v36 (F := Ideal) = val_main_v11 (F := Ideal) := rfl
theorem second_degree_eq (e : Edges) : val_main_v45 (F := Ideal) e = degree e := rfl
theorem second_bias_eq (b : Bias) : val_main_v49 (F := Ideal) b = val_main_v24 (F := Ideal) b := rfl

/-- The first mean the reference forms is `mean` of the input features. -/
theorem first_mean_eq (x : Nodes) (e : Edges) : val_main_v21 (F := Ideal) x e = mean e x := rfl

/-- The reference's hidden features are `hidden`. -/
theorem first_layer_eq (x : Nodes) (e : Edges) (Wl Wr : Weight) (b : Bias) :
    val_main_v28 (F := Ideal) x e Wl Wr b = hidden x e Wl Wr b := by
  unfold val_main_v28 val_main_v27 val_main_v25 val_main_v22 hidden relu layer
  rw [first_mean_eq]
  rfl

/-- The second mean the reference forms is `mean` of the hidden features over the same edges. -/
theorem second_mean_eq (x : Nodes) (e : Edges) (Wl Wr : Weight) (b : Bias) :
    val_main_v46 (F := Ideal) x e Wl Wr b = mean e (hidden x e Wl Wr b) := by
  unfold val_main_v46 val_main_v38 val_main_v35 mean agg
  rw [first_layer_eq, second_sources_eq, second_destinations_eq, second_zeros_eq, second_degree_eq]

/-- The reference program computes `out`: its operations, in order, are this function's (the in-degree it computes
    twice is one value). -/
theorem reference_eq (x : Nodes) (e : Edges) (Wl1 Wr1 : Weight) (b1 : Bias) (Wl2 Wr2 : Weight) (b2 : Bias) :
    val_main_v52 (F := Ideal) x e Wl1 Wr1 b1 Wl2 Wr2 b2 = out x e Wl1 Wr1 b1 Wl2 Wr2 b2 := by
  unfold val_main_v52 val_main_v50 val_main_v47 val_main_v51 out layer
  rw [second_mean_eq, first_layer_eq, second_bias_eq]
  rfl

/-! ## A layer read at an entry -/

theorem lidx_eq (r : Fin 100000) (q k : Fin 128) : lidx_main_v26 (ix2 r q) k = ix2 r k :=
  funext fun a => by match a with | ⟨0, _⟩ => rfl | ⟨1, _⟩ => rfl

theorem ridx_eq (r : Fin 100000) (q k : Fin 128) : ridx_main_v26 (ix2 r q) k = ix2 k q :=
  funext fun a => by match a with | ⟨0, _⟩ => rfl | ⟨1, _⟩ => rfl

theorem bias_idx_eq (r : Fin 100000) (q : Fin 128) : idx_main_v23 (idx_main_v24 (ix2 r q)) = ix1 q :=
  funext fun a => by match a with | ⟨0, _⟩ => rfl

/-- Entry (r, q) of a layer: row r of the mean against column q of W_l, the bias of column q, row r of the features
    against column q of W_r. -/
theorem layer_apply (mn h : Nodes) (Wl Wr : Weight) (b : Bias) (r : Fin 100000) (q : Fin 128) :
    layer mn h Wl Wr b (ix2 r q)
      = (∑ k : Fin 128, mn (ix2 r k) * Wl (ix2 k q)) + b (ix1 q) + ∑ k : Fin 128, h (ix2 r k) * Wr (ix2 k q) := by
  show (val_main_v26 (F := Ideal) mn Wl (ix2 r q) + val_main_v24 (F := Ideal) b (ix2 r q))
      + val_main_v26 (F := Ideal) h Wr (ix2 r q) = _
  rw [val_main_v26_apply, val_main_v26_apply, val_main_v24_apply, val_main_v23_apply]
  simp only [lidx_eq, ridx_eq, bias_idx_eq]

/-- The clamp at an entry: the array clamped against is the zero word at every entry, and the zero word denotes 0. -/
theorem relu_apply (a : Nodes) (i : S100000x128.Idx) : relu a i = max (a i) 0 := by
  unfold relu
  rw [maximumf_apply, val_main_call0_v0_apply, val_main_call0_cst_apply, Ideal.ofBits_def, Cert.Sage.Laws.ofBits_zero]

/-! ## The mean by a reciprocal -/

/-- THE MEAN LAW ON ARRAYS. For any way `rep` of repeating a per-node value along the node's row (it reads its
    operand at an index depending on the entry only), an aggregate times the repeated reciprocal of the clamped count
    is the aggregate divided by the repeated clamped count — entry by entry the mean law of the extended reals; `one`
    is the per-node array of the float word 1.0. -/
theorem mean_by_reciprocal (rep : PerNode → Nodes) (κ : S100000x128.Idx → S100000x1.Idx)
    (hrep : ∀ (v : PerNode) (i : S100000x128.Idx), rep v i = v (κ i))
    (a : Nodes) (one cnt : PerNode) (hone : ∀ k, one k = Ideal.ofBits .f32 0x3F800000#32) :
    mulf (F := Ideal) a (rep (Host.divf (F := Ideal) one (maximumf (F := Ideal) cnt one)))
      = Host.divf (F := Ideal) a (rep (maximumf (F := Ideal) cnt one)) := by
  funext i
  show a i * rep (Host.divf (F := Ideal) one (maximumf (F := Ideal) cnt one)) i
      = Ideal.div (a i) (rep (maximumf (F := Ideal) cnt one) i)
  rw [hrep, hrep]
  show a i * Ideal.div (one (κ i)) (max (cnt (κ i)) (one (κ i))) = Ideal.div (a i) (max (cnt (κ i)) (one (κ i)))
  rw [hone, Cert.Sage.Laws.ofBits_one]
  exact Cert.Sage.Laws.mean_law _ _

end Cert.Sage.Spec

end
-- ==== Proof.Region.lean ====
/-
  Each dense kernel's output array, as one function of the arrays the kernel finds.

  A dense kernel runs over twenty grid points; at point t it is handed rows 5000·t … 5000·t + 4999 of the mean array and
  of the feature array, the two whole 128 × 128 weight matrices and the whole bias, and it writes rows
  5000·t … 5000·t + 4999 of its output. Entry (p, q) of the block it writes is the body's arithmetic on row p of its
  blocks — that is on row 5000·t + p of the arrays — so the block is the restriction of ONE whole-array function, the
  layer of the arrays (clamped at zero in the first kernel); the twenty blocks tile the 100000 rows, so after the last
  point the output array IS that function. Stated for ANY contents `V` the region may be entered from: what the host
  wrote there before is not opened here.
-/
import proofs.«174435_j3882650436636_1_alg».proof.Proof.Gen.KernelIdeal.Frame
import proofs.«174435_j3882650436636_1_alg».proof.Proof.Payload
import proofs.«174435_j3882650436636_1_alg».proof.Proof.Spec
import Idealize.ShloMosaic.Lib.Pipeline.Value
import Idealize.ShloMosaic.Lib.ValueIdx

set_option maxRecDepth 16384

noncomputable section

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- Two functions on a 5000 × 128 block agree when they agree at every (p, q). -/
theorem block_ext (f g : S5000x128.Idx → EReal) (h : ∀ (p : Fin 5000) (q : Fin 128), f (ix2 p q) = g (ix2 p q)) : f = g :=
  funext fun j => (congrArg f (eq_ix2 j)).trans ((h (j 0) (j 1)).trans (congrArg g (eq_ix2 j)).symm)

variable (V : (c : Dev nD) → (b : Ref sig .tc) → Buf (Elt Ideal) ((c : Thread nD τ).loc b))

/-! # The first layer's kernel (region 0) -/

/-- The printed index maps over the twenty grid points: the three row-blocked windows (the mean, the features, the
    output) are at block t on the rows and block 0 on the columns; the weights and the bias stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of block t is row 5000·t + p of the array. -/
def row0 (t : Fin cfg0.N) (p : Fin 5000) : Fin 100000 :=
  ⟨5000 * t.val + p.val, by
    have ht : t.val < 20 := by have h := t.isLt; have e : cfg0.N = 20 := N_0; omega
    have hp := p.isLt
    omega⟩

/-- The mean's block at point t, at (p, k): the mean array at (5000·t + p, k). -/
theorem read0_mean (c : Dev nD) (t : Fin cfg0.N) (p : Fin 5000) (k : Fin 128) :
    (iblk0 V c 0 t : FVec Ideal S5000x128 .f32) (ix2 p k) = (V c main_v23 : FVec Ideal S100000x128 .f32) (ix2 (row0 t p) k) := by
  obtain ⟨e0, e1, -⟩ := idx0 t
  unfold iblk0
  rw [View.read_apply]
  show (V c main_v23 : FVec Ideal S100000x128 .f32) _ = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The features' block at point t, at (p, k): the feature array at (5000·t + p, k). -/
theorem read0_feat (c : Dev nD) (t : Fin cfg0.N) (p : Fin 5000) (k : Fin 128) :
    (iblk0 V c 1 t : FVec Ideal S5000x128 .f32) (ix2 p k) = (V c main_arg0 : FVec Ideal S100000x128 .f32) (ix2 (row0 t p) k) := by
  obtain ⟨-, -, e0, e1, -⟩ := idx0 t
  unfold iblk0
  rw [View.read_apply]
  show (V c main_arg0 : FVec Ideal S100000x128 .f32) _ = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The left weight's block is the whole matrix at every point. -/
theorem read0_wl (c : Dev nD) (t : Fin cfg0.N) (k q : Fin 128) :
    (iblk0 V c 2 t : FVec Ideal S128x128 .f32) (ix2 k q) = (V c main_arg2 : FVec Ideal S128x128 .f32) (ix2 k q) := by
  obtain ⟨-, -, -, -, e0, e1, -⟩ := idx0 t
  unfold iblk0
  rw [View.read_apply]
  show (V c main_arg2 : FVec Ideal S128x128 .f32) _ = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The right weight's block is the whole matrix at every point. -/
theorem read0_wr (c : Dev nD) (t : Fin cfg0.N) (k q : Fin 128) :
    (iblk0 V c 3 t : FVec Ideal S128x128 .f32) (ix2 k q) = (V c main_arg3 : FVec Ideal S128x128 .f32) (ix2 k q) := by
  obtain ⟨-, -, -, -, -, -, e0, e1, -⟩ := idx0 t
  unfold iblk0
  rw [View.read_apply]
  show (V c main_arg3 : FVec Ideal S128x128 .f32) _ = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias's block is the whole bias at every point. -/
theorem read0_bias (c : Dev nD) (t : Fin cfg0.N) (q : Fin 128) :
    (iblk0 V c 4 t : FVec Ideal S128 .f32) (ix1 q) = (V c main_arg4 : FVec Ideal S128 .f32) (ix1 q) := by
  obtain ⟨-, -, -, -, -, -, -, -, e0, -⟩ := idx0 t
  unfold iblk0
  rw [View.read_apply]
  show (V c main_arg4 : FVec Ideal S128 .f32) _ = _
  refine congrArg _ (funext fun a => Fin.ext ?_)
  match a with
  | ⟨0, _⟩ => show win0_4.index t (0 : Fin 1) * 128 + 1 * q.val = q.val; rw [e0]; omega

/-- Entry (p, q) of the output's block at point t sits at (5000·t + p, q) of the output array. -/
theorem emb0_out (t : Fin cfg0.N) (p : Fin 5000) (q : Fin 128) :
    ((cfg0.win 5).blk t).view.emb (ix2 p q) = (ix2 (row0 t p) q : S100000x128.Idx) := by
  obtain ⟨-, -, -, -, -, -, -, -, -, e0, e1⟩ := idx0 t
  refine funext fun a => Fin.ext ?_
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- What the output array is to hold: the layer, clamped below at zero, of the arrays the region finds. -/
abbrev G0 (c : Dev nD) : FVec Ideal S100000x128 .f32 :=
  Cert.Sage.Spec.relu (Cert.Sage.Spec.layer (V c main_v23) (V c main_arg0) (V c main_arg2) (V c main_arg3) (V c main_arg4))

/-- WHAT POINT t WRITES BACK is block t of `G0`: entry (p, q) of the body's result is the two products' sums over the
    block's row p and the bias at q — rows 5000·t + p of the arrays — and so is entry (5000·t + p, q) of the layer, the bias
    added before the second product there and after it here. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  refine block_ext _ _ fun p q => ?_
  show k0_pay1 (iblk0 V c 0 t) (iblk0 V c 1 t) (iblk0 V c 2 t) (iblk0 V c 3 t) (iblk0 V c 4 t) (ix2 p q)
      = G0 V c (((cfg0.win 5).blk t).view.emb (ix2 p q))
  refine (Cert.Sage.Payload.dense_relu_apply (iblk0 V c 0 t) (iblk0 V c 1 t) (iblk0 V c 2 t) (iblk0 V c 3 t) (iblk0 V c 4 t) p q).trans ?_
  rw [emb0_out t p q]
  refine Eq.trans ?_ ((Cert.Sage.Spec.relu_apply _ _).trans (congrArg (fun z => max z 0) (Cert.Sage.Spec.layer_apply (V c main_v23) (V c main_arg0) (V c main_arg2) (V c main_arg3) (V c main_arg4) (row0 t p) q))).symm
  simp only [read0_mean V c t, read0_feat V c t, read0_wl V c t, read0_wr V c t, read0_bias V c t]
  exact congrArg (fun z => max z 0) (Cert.Sage.Laws.add_bias_comm _ _ _)

/-- Every row of the output array is in the block of the point its row falls to, t = row / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, e0, e1⟩ := idx0 t
  have ht : t.val = (i 0).val / 5000 := rfl
  refine ⟨t, flush0_5 t, ?_⟩
  show i ∈ ((View.whole main_v24).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- THE OUTPUT ARRAY after the region's twenty points is `G0`. -/
theorem final0 (c : Dev nD) : (dat0 V c).arrAt 5 cfg0.N = G0 V c :=
  (dat0 V c).arrAt_eq_of_cover 5 (G0 V c) (fun t _ => flushed0_eq V c t) (cover0)

/-! # The second layer's kernel (region 1) -/

/-- The printed index maps over the twenty grid points: the three row-blocked windows (the mean, the features, the
    output) are at block t on the rows and block 0 on the columns; the weights and the bias stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of block t is row 5000·t + p of the array. -/
def row1 (t : Fin cfg1.N) (p : Fin 5000) : Fin 100000 :=
  ⟨5000 * t.val + p.val, by
    have ht : t.val < 20 := by have h := t.isLt; have e : cfg1.N = 20 := N_1; omega
    have hp := p.isLt
    omega⟩

/-- The mean's block at point t, at (p, k): the mean array at (5000·t + p, k). -/
theorem read1_mean (c : Dev nD) (t : Fin cfg1.N) (p : Fin 5000) (k : Fin 128) :
    (iblk1 V c 0 t : FVec Ideal S5000x128 .f32) (ix2 p k) = (V c main_v36 : FVec Ideal S100000x128 .f32) (ix2 (row1 t p) k) := by
  obtain ⟨e0, e1, -⟩ := idx1 t
  unfold iblk1
  rw [View.read_apply]
  show (V c main_v36 : FVec Ideal S100000x128 .f32) _ = _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The features' block at point t, at (p, k): the feature array at (5000·t + p, k). -/
theorem read1_feat (c : Dev nD) (t : Fin cfg1.N) (p : Fin 5000) (k : Fin 128) :
    (iblk1 V c 1 t : FVec Ideal S5000x128 .f32) (ix2 p k) = (V c main_v24 : FVec Ideal S100000x128 .f32) (ix2 (row1 t p) k) := by
  obtain ⟨-, -, e0, e1, -⟩ := idx1 t
  unfold iblk1
  rw [View.read_apply]
  show (V c main_v24 : FVec Ideal S100000x128 .f32) _ = _
  refine congrArg _ (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The left weight's block is the whole matrix at every point. -/
theorem read1_wl (c : Dev nD) (t : Fin cfg1.N) (k q : Fin 128) :
    (iblk1 V c 2 t : FVec Ideal S128x128 .f32) (ix2 k q) = (V c main_arg5 : FVec Ideal S128x128 .f32) (ix2 k q) := by
  obtain ⟨-, -, -, -, e0, e1, -⟩ := idx1 t
  unfold iblk1
  rw [View.read_apply]
  show (V c main_arg5 : FVec Ideal S128x128 .f32) _ = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The right weight's block is the whole matrix at every point. -/
theorem read1_wr (c : Dev nD) (t : Fin cfg1.N) (k q : Fin 128) :
    (iblk1 V c 3 t : FVec Ideal S128x128 .f32) (ix2 k q) = (V c main_arg6 : FVec Ideal S128x128 .f32) (ix2 k q) := by
  obtain ⟨-, -, -, -, -, -, e0, e1, -⟩ := idx1 t
  unfold iblk1
  rw [View.read_apply]
  show (V c main_arg6 : FVec Ideal S128x128 .f32) _ = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias's block is the whole bias at every point. -/
theorem read1_bias (c : Dev nD) (t : Fin cfg1.N) (q : Fin 128) :
    (iblk1 V c 4 t : FVec Ideal S128 .f32) (ix1 q) = (V c main_arg7 : FVec Ideal S128 .f32) (ix1 q) := by
  obtain ⟨-, -, -, -, -, -, -, -, e0, -⟩ := idx1 t
  unfold iblk1
  rw [View.read_apply]
  show (V c main_arg7 : FVec Ideal S128 .f32) _ = _
  refine congrArg _ (funext fun a => Fin.ext ?_)
  match a with
  | ⟨0, _⟩ => show win1_4.index t (0 : Fin 1) * 128 + 1 * q.val = q.val; rw [e0]; omega

/-- Entry (p, q) of the output's block at point t sits at (5000·t + p, q) of the output array. -/
theorem emb1_out (t : Fin cfg1.N) (p : Fin 5000) (q : Fin 128) :
    ((cfg1.win 5).blk t).view.emb (ix2 p q) = (ix2 (row1 t p) q : S100000x128.Idx) := by
  obtain ⟨-, -, -, -, -, -, -, -, -, e0, e1⟩ := idx1 t
  refine funext fun a => Fin.ext ?_
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- What the output array is to hold: the layer of the arrays the region finds. -/
abbrev G1 (c : Dev nD) : FVec Ideal S100000x128 .f32 :=
  Cert.Sage.Spec.layer (V c main_v36) (V c main_v24) (V c main_arg5) (V c main_arg6) (V c main_arg7)

/-- WHAT POINT t WRITES BACK is block t of `G1`: entry (p, q) of the body's result is the two products' sums over the
    block's row p and the bias at q — rows 5000·t + p of the arrays — and so is entry (5000·t + p, q) of the layer, the bias
    added before the second product there and after it here. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  refine block_ext _ _ fun p q => ?_
  show k1_pay1 (iblk1 V c 0 t) (iblk1 V c 1 t) (iblk1 V c 2 t) (iblk1 V c 3 t) (iblk1 V c 4 t) (ix2 p q)
      = G1 V c (((cfg1.win 5).blk t).view.emb (ix2 p q))
  refine (Cert.Sage.Payload.dense_apply (iblk1 V c 0 t) (iblk1 V c 1 t) (iblk1 V c 2 t) (iblk1 V c 3 t) (iblk1 V c 4 t) p q).trans ?_
  rw [emb1_out t p q]
  refine Eq.trans ?_ (Cert.Sage.Spec.layer_apply (V c main_v36) (V c main_v24) (V c main_arg5) (V c main_arg6) (V c main_arg7) (row1 t p) q).symm
  simp only [read1_mean V c t, read1_feat V c t, read1_wl V c t, read1_wr V c t, read1_bias V c t]
  exact Cert.Sage.Laws.add_bias_comm _ _ _

/-- Every row of the output array is in the block of the point its row falls to, t = row / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨-, -, -, -, -, -, -, -, -, e0, e1⟩ := idx1 t
  have ht : t.val = (i 0).val / 5000 := rfl
  refine ⟨t, flush1_5 t, ?_⟩
  show i ∈ ((View.whole main_v37).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- THE OUTPUT ARRAY after the region's twenty points is `G1`. -/
theorem final1 (c : Dev nD) : (dat1 V c).arrAt 5 cfg1.N = G1 V c :=
  (dat1 V c).arrAt_eq_of_cover 5 (G1 V c) (fun t _ => flushed1_eq V c t) (cover1)

end Cert.Sage.Region

end
-- ==== Proof.HostSide.lean ====
/-
  What the host stretches leave in the arrays the two dense kernels read.

  Before each kernel the host forms the neighbourhood mean of the current features the kernel's way: it reads the
  source row and the destination row off the edge list, wraps negative source rows to count from the end, gathers the
  source rows of the features, scatter-adds them onto zeros by destination, and multiplies each node's row by the
  reciprocal of its in-degree clamped below at one (the in-degree is a scatter-add of ones by destination, formed once
  and used before both kernels). Nothing else the kernels read is written by the host: the features, the weights and the
  biases are the arguments, and between the two kernels the hidden features are the first kernel's output array.
-/
import proofs.«174435_j3882650436636_1_alg».proof.Proof.Gen.KernelIdeal.Frame
import Idealize.ShloMosaic.Lib.StableHlo.Run
import Idealize.ShloMosaic.PureOps.Ideal

set_option maxRecDepth 16384

noncomputable section

namespace Cert.Sage.HostSide

open Idealize.ShloMosaic Idealize.ShloMosaic.TcCoe Idealize.SL.Sem Idealize.ShloMosaic.StableHlo
open Cert.KernelIdeal Cert.KernelIdeal.Gen

/-- The edge list as the kernel program's argument. -/
abbrev EdgeList := (⟨S2x1600000, .i32⟩ : BufTy).Contents (Elt Ideal)

/-- The source node of each edge: row 0 of the edge list. -/
def srcRows (e : EdgeList) : IVec S1600000 32 :=
  shapeCast _ (extractStridedSlice S1x1600000 ![0, 0] e slices_S2x1600000_S1x1600000_0_0) shapeCasts_S1x1600000_S1600000

/-- The destination node of each edge: row 1 of the edge list. -/
def dstRows (e : EdgeList) : IVec S1600000 32 :=
  shapeCast _ (extractStridedSlice S1x1600000 ![1, 0] e slices_S2x1600000_S1x1600000_1_0) shapeCasts_S1x1600000_S1600000

/-- A negative row number counts from the end: 100000 is added to it. -/
def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- Row numbers as a one-column index array. -/
def asColumn (s : IVec S1600000 32) : IVec S1600000x1 32 :=
  broadcastInDim S1600000x1 ![0] bcast_S1600000_S1600000x1_0 s

/-- The array scattered onto: zero everywhere. -/
def zeros : FVec Ideal S100000x128 .f32 :=
  broadcastInDim S100000x128 ![] bcast_S_S100000x128 (constant (F := Ideal) S_ .f32 0x00000000#32)

/-- The sum, onto each destination node, of the feature rows of its incoming edges' sources. -/
def aggOf (src dst : IVec S1600000 32) (h : FVec Ideal S100000x128 .f32) : FVec Ideal S100000x128 .f32 :=
  Host.scatterAdd (F := Ideal) scatter_S100000x128_S1600000x1_S1600000x128_1_0_0_1 zeros (asColumn dst)
    (Host.gather gather_S100000x128_S1600000x1_S1600000x128_1_0_n_n_0_1_1128 h (asColumn (wrapped src)))

/-- One per node. -/
def ones : FVec Ideal S100000x1 .f32 :=
  broadcastInDim S100000x1 ![] bcast_S_S100000x1 (constant (F := Ideal) S_ .f32 0x3F800000#32)

/-- Each node's in-degree: ones scatter-added onto zeros by destination. -/
def countOf (dst : IVec S1600000 32) : FVec Ideal S100000x1 .f32 :=
  Host.scatterAdd (F := Ideal) scatter_S100000x1_S1600000x1_S1600000x1_1_0_0_1
    (broadcastInDim S100000x1 ![] bcast_S_S100000x1 (constant (F := Ideal) S_ .f32 0x00000000#32)) (asColumn dst)
    (broadcastInDim S1600000x1 ![] bcast_S_S1600000x1 (constant (F := Ideal) S_ .f32 0x3F800000#32))

/-- The reciprocal of each node's in-degree clamped below at one. -/
def reciprocalOf (dst : IVec S1600000 32) : FVec Ideal S100000x1 .f32 :=
  Host.divf (F := Ideal) ones (maximumf (F := Ideal) (countOf dst) ones)

/-- A per-node value repeated along the node's row. -/
def alongRows (v : FVec Ideal S100000x1 .f32) : FVec Ideal S100000x128 .f32 :=
  broadcastInDim S100000x128 ![0, 1] bcast_S100000x1_S100000x128_0_1 v

/-- The mean the kernel's way: the aggregate times the per-node reciprocal. -/
def meanOf (src dst : IVec S1600000 32) (inv : FVec Ideal S100000x1 .f32) (h : FVec Ideal S100000x128 .f32) :
    FVec Ideal S100000x128 .f32 :=
  mulf (F := Ideal) (aggOf src dst h) (alongRows inv)

variable (m : (ℓ : Loc nD τ sig) → Buf (Elt Ideal) ℓ) (ρ : Dev nD → PrngReg) (c : Dev nD)

/-- The edge list at launch. -/
abbrev edges : EdgeList := m ((c : Thread nD τ).loc main_arg1)

/-! ## Before the first kernel -/

set_option maxHeartbeats 4000000 in
/-- The array the first kernel reads its means from: the mean, the kernel's way, of the input features. -/
theorem entry0_mean :
    (V1 m ρ c main_v23 : FVec Ideal S100000x128 .f32)
      = meanOf (srcRows (edges m c)) (dstRows (edges m c)) (reciprocalOf (dstRows (edges m c)))
          (m ((c : Thread nD τ).loc main_arg0)) := by
  show StableHlo.after hostOps0 (W0 m ρ c) (Proc.devRef .tc main_v23) = _
  dsimp only [hostOps0]
  after_results_simp
  rfl

set_option maxHeartbeats 4000000 in
/-- The features the first kernel reads are the input features: no host operation writes an argument. -/
theorem entry0_feat : V1 m ρ c main_arg0 = m ((c : Thread nD τ).loc main_arg0) := by
  show StableHlo.after hostOps0 (W0 m ρ c) (Proc.devRef .tc main_arg0) = _
  dsimp only [hostOps0]
  after_results_simp <;> rfl

set_option maxHeartbeats 4000000 in
/-- The first kernel's left weight is the argument. -/
theorem entry0_wl : V1 m ρ c main_arg2 = m ((c : Thread nD τ).loc main_arg2) := by
  show StableHlo.after hostOps0 (W0 m ρ c) (Proc.devRef .tc main_arg2) = _
  dsimp only [hostOps0]
  after_results_simp <;> rfl

set_option maxHeartbeats 4000000 in
/-- The first kernel's right weight is the argument. -/
theorem entry0_wr : V1 m ρ c main_arg3 = m ((c : Thread nD τ).loc main_arg3) := by
  show StableHlo.after hostOps0 (W0 m ρ c) (Proc.devRef .tc main_arg3) = _
  dsimp only [hostOps0]
  after_results_simp <;> rfl

set_option maxHeartbeats 4000000 in
/-- The first kernel's bias is the argument. -/
theorem entry0_bias : V1 m ρ c main_arg4 = m ((c : Thread nD τ).loc main_arg4) := by
  show StableHlo.after hostOps0 (W0 m ρ c) (Proc.devRef .tc main_arg4) = _
  dsimp only [hostOps0]
  after_results_simp <;> rfl

/-! ## Between the two kernels

The first kernel writes only its output array, so what the first host stretch computed from the edge list — the two
row arrays and the per-node reciprocal — is still there when the second stretch reads it, and the array the second
stretch gathers from is the first kernel's output. -/

set_option maxHeartbeats 4000000 in
/-- The source rows, as the second stretch finds them. -/
theorem mid_src : (W2 m ρ c (Proc.devRef .tc main_v1) : IVec S1600000 32) = srcRows (edges m c) :=
  (W2_of_ne m ρ c main_v1 (by decide)).trans (by
    show StableHlo.after hostOps0 (W0 m ρ c) (Proc.devRef .tc main_v1) = _
    dsimp only [hostOps0]
    after_results_simp <;> rfl)

set_option maxHeartbeats 4000000 in
/-- The destination rows, as the second stretch finds them. -/
theorem mid_dst : (W2 m ρ c (Proc.devRef .tc main_v3) : IVec S1600000 32) = dstRows (edges m c) :=
  (W2_of_ne m ρ c main_v3 (by decide)).trans (by
    show StableHlo.after hostOps0 (W0 m ρ c) (Proc.devRef .tc main_v3) = _
    dsimp only [hostOps0]
    after_results_simp <;> rfl)

set_option maxHeartbeats 4000000 in
/-- The per-node reciprocal of the clamped in-degree, as the second stretch finds it. -/
theorem mid_inv : (W2 m ρ c (Proc.devRef .tc main_v11) : FVec Ideal S100000x1 .f32) = reciprocalOf (dstRows (edges m c)) :=
  (W2_of_ne m ρ c main_v11 (by decide)).trans (by
    show StableHlo.after hostOps0 (W0 m ρ c) (Proc.devRef .tc main_v11) = _
    dsimp only [hostOps0]
    after_results_simp <;> rfl)

/-- The hidden features, as the second stretch finds them: the first kernel's output array after its last point. -/
theorem mid_hidden : W2 m ρ c (Proc.devRef .tc main_v24) = (dat0 (V1 m ρ) c).arrAt 5 cfg0.N :=
  W2_arr m ρ c 5

/-! ## Before the second kernel -/

set_option maxHeartbeats 4000000 in
/-- The array the second kernel reads its means from: the mean, the kernel's way, of the hidden features, over the
    same rows and with the same reciprocal. -/
theorem entry1_mean :
    (V3 m ρ c main_v36 : FVec Ideal S100000x128 .f32)
      = meanOf (W2 m ρ c (Proc.devRef .tc main_v1)) (W2 m ρ c (Proc.devRef .tc main_v3))
          (W2 m ρ c (Proc.devRef .tc main_v11)) (W2 m ρ c (Proc.devRef .tc main_v24)) := by
  show StableHlo.after hostOps1 (W2 m ρ c) (Proc.devRef .tc main_v36) = _
  dsimp only [hostOps1]
  after_results_simp <;> rfl

set_option maxHeartbeats 4000000 in
/-- The features the second kernel reads are the hidden features: the second stretch does not write them. -/
theorem entry1_feat : V3 m ρ c main_v24 = W2 m ρ c (Proc.devRef .tc main_v24) := by
  show StableHlo.after hostOps1 (W2 m ρ c) (Proc.devRef .tc main_v24) = _
  dsimp only [hostOps1]
  after_results_simp <;> rfl

/-- The second kernel's left weight is the argument: the kernel leaves an array it only reads as it found it, and the
    argument ends as launched. -/
theorem entry1_wl : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)

/-- The second kernel's right weight is the argument. -/
theorem entry1_wr : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)

/-- The second kernel's bias is the argument. -/
theorem entry1_bias : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

end Cert.Sage.HostSide

end
-- ==== Proof.Bridge.lean ====
/-
  The kernel program computes the network.

  The host's operations in the kernel program are, one for one, the operations the network's `agg` and in-degree are
  made of (the same slices of the same edge list, the same wrap of negative rows, the same gather and scatter-adds), so
  the mean the host forms before each kernel — the aggregate TIMES the reciprocal of the clamped in-degree — is the
  network's mean — the aggregate DIVIDED BY the clamped in-degree — by the mean law of the extended reals. The first
  kernel's output array is then the hidden features, the second kernel's output array the network's result.
-/
import proofs.«174435_j3882650436636_1_alg».proof.Proof.Region
import proofs.«174435_j3882650436636_1_alg».proof.Proof.HostSide
import proofs.«174435_j3882650436636_1_alg».proof.Proof.Spec

set_option maxRecDepth 16384

noncomputable section

namespace Cert.Sage.Bridge

open Idealize.ShloMosaic Idealize.ShloMosaic.TcCoe Idealize.ShloMosaic.ValueIdx Idealize.SL.Sem
open Cert.KernelIdeal Cert.KernelIdeal.Gen
open Cert.Sage.HostSide

/-! ## The host's terms are the network's -/

theorem sources_eq (e : EdgeList) :
    asColumn (wrapped (srcRows e)) = Cert.ReferenceIdeal.Read.val_main_v9 (F := Ideal) e := rfl

theorem destinations_eq (e : EdgeList) :
    asColumn (dstRows e) = Cert.ReferenceIdeal.Read.val_main_v12 (F := Ideal) e := rfl

theorem zeros_eq : zeros = Cert.ReferenceIdeal.Read.val_main_v11 (F := Ideal) := rfl

/-- The aggregate the host forms is the network's. -/
theorem agg_eq (e : EdgeList) (h : FVec Ideal S100000x128 .f32) :
    aggOf (srcRows e) (dstRows e) h = Cert.Sage.Spec.agg e h := by
  unfold aggOf Cert.Sage.Spec.agg
  rw [sources_eq, destinations_eq, zeros_eq]
  rfl

/-- The per-node array of ones is the float word 1.0 at every node. -/
theorem ones_apply (k : S100000x1.Idx) : ones k = Ideal.ofBits .f32 0x3F800000#32 := by
  unfold ones broadcastInDim
  exact constant_apply _ _

/-- The clamped in-degree the host forms, repeated along the rows, is the network's. -/
theorem degree_eq (e : EdgeList) :
    alongRows (maximumf (F := Ideal) (countOf (dstRows e)) ones) = Cert.Sage.Spec.degree e := rfl

/-- THE MEAN the host forms — the aggregate times the reciprocal of the clamped in-degree — is the network's mean,
    the aggregate divided by the clamped in-degree. Repeating along the rows reads its operand at an index depending on
    the entry only (the repeat of the identity names that index). -/
theorem mean_eq (e : EdgeList) (h : FVec Ideal S100000x128 .f32) :
    meanOf (srcRows e) (dstRows e) (reciprocalOf (dstRows e)) h = Cert.Sage.Spec.mean e h := by
  unfold meanOf reciprocalOf
  rw [agg_eq]
  refine (Cert.Sage.Spec.mean_by_reciprocal alongRows
    (broadcastInDim S100000x128 ![0, 1] bcast_S100000x1_S100000x128_0_1 fun k => k)
    (fun v i => rfl) (Cert.Sage.Spec.agg e h) ones (countOf (dstRows e)) ones_apply).trans ?_
  unfold Cert.Sage.Spec.mean
  rw [degree_eq]

variable (m : (ℓ : Loc nD τ sig) → Buf (Elt Ideal) ℓ) (ρ : Dev nD → PrngReg) (c : Dev nD)

/-! ## The two kernels' output arrays -/

/-- The first kernel's output array after its last point is the network's hidden features. -/
theorem hidden_value :
    (dat0 (V1 m ρ) c).arrAt 5 cfg0.N
      = Cert.Sage.Spec.hidden (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.Sage.Region.final0]
  show Cert.Sage.Spec.relu (Cert.Sage.Spec.layer (V1 m ρ c main_v23) (V1 m ρ c main_arg0) (V1 m ρ c main_arg2)
    (V1 m ρ c main_arg3) (V1 m ρ c main_arg4)) = _
  rw [entry0_mean, entry0_feat, entry0_wl, entry0_wr, entry0_bias, mean_eq]
  rfl

/-- THE KERNEL PROGRAM'S RESULT: the second kernel's output array after its last point is the network. -/
theorem kernel_value :
    (dat1 (V3 m ρ) c).arrAt 5 cfg1.N
      = Cert.Sage.Spec.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [Cert.Sage.Region.final1]
  show Cert.Sage.Spec.layer (V3 m ρ c main_v36) (V3 m ρ c main_v24) (V3 m ρ c main_arg5) (V3 m ρ c main_arg6)
    (V3 m ρ c main_arg7) = _
  rw [entry1_mean, entry1_feat, entry1_wl, entry1_wr, entry1_bias, mid_src, mid_dst, mid_inv, mid_hidden,
    hidden_value, mean_eq]
  rfl

end Cert.Sage.Bridge

end
-- ==== Proof.lean ====
/-
  Two layers of mean-aggregation graph convolution on 100000 nodes and 1600000 edges: a kernel program against its
  reference, equal as extended reals.

  THE MATHEMATICS. For node features h and an edge list e, let  agg e h  sum onto each node the feature rows of the
  sources of its incoming edges and let  cnt e  be its in-degree. The reference computes, per layer,
        mean = agg / max(cnt, 1) ,        out = mean·W_l + b + h·W_r ,
  with a clamp at zero after the first layer. The kernel program forms the mean on the host as
        mean = agg · (1 / max(cnt, 1))
  and hands it, with h, the weights and the bias, to a dense kernel that computes  (mean·W_l + h·W_r) + b  on the
  matrix unit, 5000 rows at a time over 20 grid points, clamping at zero in the first layer; the second layer's host
  stretch gathers from the first kernel's output array.

  Three facts join the two programs over the extended reals, none of them needing an input to be finite:
    • a quotient  x / y  is  x · y⁻¹  for EVERY y ≠ 0, and max(cnt, 1) ≥ 1 is never zero, so the two means agree at every
      aggregate and every count (Proof/Laws.lean, Proof/Spec.lean, Proof/Bridge.lean);
    • a product on the matrix unit into a zero accumulator and the host's matrix product are the same 128-term sum of
      products, a change of float format being the identity (Proof/Payload.lean, Proof/Spec.lean);
    • addition is commutative and associative, at the infinities too, so the bias may be added before or after the
      second product (Proof/Laws.lean).
  Which rows an edge gathers from and scatters onto is decided by the integer edge list alone and is the same on both
  sides: the gather and the scatter-adds are carried as one opaque function of the features and never opened.

  THE PROOF. Proof/Spec.lean states the network as one function  out  of the eight arguments and shows the reference's
  run ends at it. On the kernel side Proof/KernelRun.lean names every buffer at the end of the four stretches (host,
  kernel, host, kernel); Proof/Region.lean shows each kernel's output array, after its twenty points, is the layer of the
  arrays the kernel finds, whatever they are; Proof/HostSide.lean says what the host stretches leave in those arrays;
  Proof/Bridge.lean puts them together: the second kernel's output array is  out  of the arguments. The idealization
  rewrote nothing, so `preserves` has nothing to say; the three frames are the generated ones.
-/
import proofs.«174435_j3882650436636_1_alg».proof.Defs
import proofs.«174435_j3882650436636_1_alg».proof.Proof.Gen.Kernel
import proofs.«174435_j3882650436636_1_alg».proof.Proof.Gen.Kernel.Frame
import proofs.«174435_j3882650436636_1_alg».proof.Proof.Gen.KernelIdeal
import proofs.«174435_j3882650436636_1_alg».proof.Proof.Gen.KernelIdeal.Frame
import proofs.«174435_j3882650436636_1_alg».proof.Proof.Gen.ReferenceIdeal
import proofs.«174435_j3882650436636_1_alg».proof.Proof.Gen.Pre_finite_inputs
import proofs.«174435_j3882650436636_1_alg».proof.Proof.Gen.ReferenceIdeal.Run
import proofs.«174435_j3882650436636_1_alg».proof.Proof.Gen.ReferenceIdeal.Read
import proofs.«174435_j3882650436636_1_alg».proof.Proof.KernelRun
import proofs.«174435_j3882650436636_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments both programs end with their result at the network `out` of those
    arguments: the kernel program's result buffer is its second kernel's output array, which is `out`; the reference's
    run ends at its composed term, which is `out`; the arguments agree. -/
theorem algebraic : Cert.algebraic_KernelIdeal_ReferenceIdeal := by
  intro m ρ m' ρ' _ hagree
  refine ⟨fun c => Cert.Sage.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Bridge.kernel_value m ρ c), (h c).2⟩)
      (Cert.Sage.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, Cert.Sage.Spec.reference_eq]
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
